-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S512x512 : Shape := ⟨2, ![512, 512]⟩
abbrev S512 : Shape := ⟨1, ![512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512x512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S8x2048x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S8x2048x512 : Shape := ⟨3, ![8, 2048, 512]⟩
abbrev S512x512 : Shape := ⟨2, ![512, 512]⟩
abbrev S512 : Shape := ⟨1, ![512]⟩
abbrev S8x1x512 : Shape := ⟨3, ![8, 1, 512]⟩
abbrev S1x512x512 : Shape := ⟨3, ![1, 512, 512]⟩
abbrev S1x1x512 : Shape := ⟨3, ![1, 1, 512]⟩
abbrev S1x512 : Shape := ⟨2, ![1, 512]⟩
abbrev S8x512 : Shape := ⟨2, ![8, 512]⟩
abbrev S1x8x512 : Shape := ⟨3, ![1, 8, 512]⟩
abbrev S2x8x512 : Shape := ⟨3, ![2, 8, 512]⟩

abbrev nBuf : Space → Nat
  | .hbm => 15
  | .vmem => 14
  | .smem => 0
  | _ => 0

abbrev bufTy : (tb : Table) → Fin (tcTables nBuf tb) → BufTy
  | .hbm, ⟨0, _⟩ => ⟨S8x2048x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S8x2048x512, .f32⟩
  | .hbm, ⟨8, _⟩ => ⟨S8x1x512, .f32⟩
  | .hbm, ⟨9, _⟩ => ⟨S8x1x512, .f32⟩
  | .hbm, ⟨10, _⟩ => ⟨S8x512, .f32⟩
  | .hbm, ⟨11, _⟩ => ⟨S8x512, .f32⟩
  | .hbm, ⟨12, _⟩ => ⟨S1x8x512, .f32⟩
  | .hbm, ⟨13, _⟩ => ⟨S1x8x512, .f32⟩
  | .hbm, ⟨14, _⟩ => ⟨S2x8x512, .f32⟩
  | .local _ .vmem, ⟨0, _⟩ => ⟨S1x512x512, .f32⟩
  | .local _ .vmem, ⟨1, _⟩ => ⟨S1x512x512, .f32⟩
  | .local _ .vmem, ⟨2, _⟩ => ⟨S512x512, .f32⟩
  | .local _ .vmem, ⟨3, _⟩ => ⟨S512, .f32⟩
  | .local _ .vmem, ⟨4, _⟩ => ⟨S512x512, .f32⟩
  | .local _ .vmem, ⟨5, _⟩ => ⟨S512, .f32⟩
  | .local _ .vmem, ⟨6, _⟩ => ⟨S512x512, .f32⟩
  | .local _ .vmem, ⟨7, _⟩ => ⟨S512, .f32⟩
  | .local _ .vmem, ⟨8, _⟩ => ⟨S1x512x512, .f32⟩
  | .local _ .vmem, ⟨9, _⟩ => ⟨S1x512x512, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32 : BitVec 32 := 0#32
  let v33 : BitVec 1 := Scalar.cmpi .ne v32 c0_i32
  v33

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  shapeCasts_S512x512_S1x512x512 : S512x512.ShapeCasts S1x512x512
  slices_S512x512_o511_0_S1x512 : S512x512.Slices ![511, 0] S1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  shapeCasts_S8x1x512_S8x512 : S8x1x512.ShapeCasts S8x512
  bcast_S8x512_S1x8x512_1_2 : S8x512.BroadcastsInDim S1x8x512 (![1, 2] : Fin 2 → Fin S1x8x512.rank)
  concatenates_S1x8x512_S1x8x512_S2x8x512_d0 : Shape.Concatenates [S1x8x512, S1x8x512] S2x8x512 0
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S8x2048x512.size a
  hwx0_0 : ∀ i : grid0.Coords, EltTy.bits .f32 = 32 ∨ (Rect.block (s := S8x2048x512) S1x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x512.size a ≤ S8x2048x512.size a
  hwx0_7 : ∀ i : grid0.Coords, EltTy.bits .f32 = 32 ∨ (Rect.block (s := S8x2048x512) S1x512x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x512.size a ≤ S8x1x512.size a
  hwx0_8 : ∀ i : grid0.Coords, EltTy.bits .f32 = 32 ∨ (Rect.block (s := S8x1x512) S1x1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x512.size a ≤ S8x1x512.size a
  hwx0_9 : ∀ i : grid0.Coords, EltTy.bits .f32 = 32 ∨ (Rect.block (s := S8x1x512) S1x1x512.size (cc0_transform_9 i) (hinb0_9 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S1x512x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S1x1x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_2) S1x1x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond1 i == 1#1) | 9 => fun i => !(k0_cond1 i == 1#1) | ⟨_ + 10, h⟩ => absurd h (Nat.not_lt.2 (Nat.le_add_left _ _))

class Facts : Prop extends Facts₀ where

variable [Facts]
-- ==== ReferenceIdeal.lean ====
abbrev S8x2048x512 : Shape := ⟨3, ![8, 2048, 512]⟩
abbrev S512x512 : Shape := ⟨2, ![512, 512]⟩
abbrev S512 : Shape := ⟨1, ![512]⟩
abbrev S1x1x512 : Shape := ⟨3, ![1, 1, 512]⟩
abbrev S8x1x512 : Shape := ⟨3, ![8, 1, 512]⟩
abbrev S8x512 : Shape := ⟨2, ![8, 512]⟩
abbrev S1x8x512 : Shape := ⟨3, ![1, 8, 512]⟩
abbrev S2x8x512 : Shape := ⟨3, ![2, 8, 512]⟩

abbrev nBuf : Space → Nat
  | .hbm => 28
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S8x2048x512, .f32⟩
  | .hbm, ⟨8, _⟩ => ⟨S1x1x512, .f32⟩
  | .hbm, ⟨9, _⟩ => ⟨S8x2048x512, .f32⟩
  | .hbm, ⟨10, _⟩ => ⟨S8x2048x512, .f32⟩
  | .hbm, ⟨11, _⟩ => ⟨S8x2048x512, .f32⟩
  | .hbm, ⟨12, _⟩ => ⟨S8x2048x512, .f32⟩
  | .hbm, ⟨13, _⟩ => ⟨S1x1x512, .f32⟩
  | .hbm, ⟨14, _⟩ => ⟨S8x2048x512, .f32⟩
  | .hbm, ⟨15, _⟩ => ⟨S8x2048x512, .f32⟩
  | .hbm, ⟨16, _⟩ => ⟨S8x2048x512, .f32⟩
  | .hbm, ⟨17, _⟩ => ⟨S8x2048x512, .f32⟩
  | .hbm, ⟨18, _⟩ => ⟨S1x1x512, .f32⟩
  | .hbm, ⟨19, _⟩ => ⟨S8x2048x512, .f32⟩
  | .hbm, ⟨20, _⟩ => ⟨S8x2048x512, .f32⟩
  | .hbm, ⟨21, _⟩ => ⟨S8x1x512, .f32⟩
  | .hbm, ⟨22, _⟩ => ⟨S8x512, .f32⟩
  | .hbm, ⟨23, _⟩ => ⟨S8x1x512, .f32⟩
  | .hbm, ⟨24, _⟩ => ⟨S8x512, .f32⟩
  | .hbm, ⟨25, _⟩ => ⟨S1x8x512, .f32⟩
  | .hbm, ⟨26, _⟩ => ⟨S1x8x512, .f32⟩
  | .hbm, ⟨27, _⟩ => ⟨S2x8x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x2048x512_0_1_2 : S1x1x512.BroadcastsInDim S8x2048x512 (![0, 1, 2] : Fin 3 → Fin S8x2048x512.rank)
  slices_S8x2048x512_S8x1x512_0_2047_0 : S8x2048x512.Slices ![0, 2047, 0] S8x1x512
  shapeCasts_S8x1x512_S8x512 : S8x1x512.ShapeCasts S8x512
  bcast_S8x512_S1x8x512_1_2 : S8x512.BroadcastsInDim S1x8x512 (![1, 2] : Fin 2 → Fin S1x8x512.rank)
  concatenates_S1x8x512_S1x8x512_S2x8x512_d0 : Shape.Concatenates [S1x8x512, S1x8x512] S2x8x512 0
  dot_S8x2048x512_S512x512_S8x2048x512_2_1_01_0_n_n_wf : DotDims.WF S8x2048x512 S512x512 S8x2048x512 [2] [1] [0, 1] [0] [] []

variable [Facts₀]

def dot_S8x2048x512_S512x512_S8x2048x512_2_1_01_0_n_n : DotDims S8x2048x512 S512x512 S8x2048x512 where
  lhsContracting := [2]
  rhsContracting := [1]
  lhsNonContracting := [0, 1]
  rhsNonContracting := [0]
  lhsBatch := []
  rhsBatch := []
  wf := dot_S8x2048x512_S512x512_S8x2048x512_2_1_01_0_n_n_wf

class Facts : Prop extends Facts₀ where

variable [Facts]
-- ==== Proof.TileValues.lean ====
/-
  What one run of the body leaves in its output buffers, as values.

  The body stores each output once, through the whole-buffer rectangle at offset zero, and loads each input through its
  whole buffer. A buffer written once through its whole rectangle holds the stored value, and a whole buffer read through
  its whole rectangle gives its contents. So after the body, at a point where the second grid coordinate is not 3, the
  output tile's buffer holds the third layer's tile of the input blocks; where it is 3, also the two last-row buffers
  hold the last row of the first and second activations. This holds for any float type.
-/
import proofs.«131985_j40776419508632_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Tiles

open Cert.KernelIdeal Cert.KernelIdeal.Gen

variable {F : FTy → Type} [FloatOps F]

/-- The zero offsets of a rank-3, a rank-2 and a rank-1 buffer. -/
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- Away from the last tile of a sequence the output buffer ends at the third layer's tile. -/
theorem tile_A (c : Dev nD) (i : grid0.Coords) (arg2 : Memref sig .tc .vmem S1x512x512 .f32) (harg2 : arg2.IsWhole) (arg3 : Memref sig .tc .vmem S512x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x512 .f32) (harg7 : arg7.IsWhole) (arg8 : Memref sig .tc .vmem S512 .f32) (harg8 : arg8.IsWhole) (arg9 : Memref sig .tc .vmem S1x512x512 .f32) (harg9 : arg9.IsWhole) (arg10 : Memref sig .tc .vmem S1x1x512 .f32) (harg10 : arg10.IsWhole) (arg11 : Memref sig .tc .vmem S1x1x512 .f32) (harg11 : arg11.IsWhole) (hc0 : ¬cond0_0 i)
    (x0 : Vec F S1x512x512 .f32) (x1 : Vec F S512x512 .f32) (x2 : Vec F S512 .f32) (x3 : Vec F S512x512 .f32) (x4 : Vec F S512 .f32) (x5 : Vec F S512x512 .f32) (x6 : Vec F S512 .f32) :
    out0_A_7 c i arg2 harg2 arg3 harg3 arg4 harg4 arg5 harg5 arg6 harg6 arg7 harg7 arg8 harg8 arg9 harg9 arg10 harg10 arg11 harg11 hc0 x0 x1 x2 x3 x4 x5 x6 = k0_pay3 x0 x1 x2 x3 x4 x5 x6 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  rw [View.canon_unit_zero hz3]
  simp only [View.readAt_eq_ld, harg2.read_unread, harg3.read_unread, harg4.read_unread, harg5.read_unread,
    harg6.read_unread, harg7.read_unread, harg8.read_unread, View.ld_unit_zero (S := S1x512x512) hz3,
    View.ld_unit_zero (S := S512x512) hz2, View.ld_unit_zero (S := S512) hz1]

/-- At the last tile of a sequence it does too, -/
theorem tile_B (c : Dev nD) (i : grid0.Coords) (arg2 : Memref sig .tc .vmem S1x512x512 .f32) (harg2 : arg2.IsWhole) (arg3 : Memref sig .tc .vmem S512x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x512 .f32) (harg7 : arg7.IsWhole) (arg8 : Memref sig .tc .vmem S512 .f32) (harg8 : arg8.IsWhole) (arg9 : Memref sig .tc .vmem S1x512x512 .f32) (harg9 : arg9.IsWhole) (arg10 : Memref sig .tc .vmem S1x1x512 .f32) (harg10 : arg10.IsWhole) (arg11 : Memref sig .tc .vmem S1x1x512 .f32) (harg11 : arg11.IsWhole) (hc0 : cond0_0 i)
    (x0 : Vec F S1x512x512 .f32) (x1 : Vec F S512x512 .f32) (x2 : Vec F S512 .f32) (x3 : Vec F S512x512 .f32) (x4 : Vec F S512 .f32) (x5 : Vec F S512x512 .f32) (x6 : Vec F S512 .f32) :
    out0_B_7 c i arg2 harg2 arg3 harg3 arg4 harg4 arg5 harg5 arg6 harg6 arg7 harg7 arg8 harg8 arg9 harg9 arg10 harg10 arg11 harg11 hc0 x0 x1 x2 x3 x4 x5 x6 = k0_pay3 x0 x1 x2 x3 x4 x5 x6 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 x6)]
  unfold kernelRun0_B
  dsimp only
  rw [View.canon_unit_zero hz3]
  simp only [View.readAt_eq_ld, harg2.read_unread, harg3.read_unread, harg4.read_unread, harg5.read_unread,
    harg6.read_unread, harg7.read_unread, harg8.read_unread, View.ld_unit_zero (S := S1x512x512) hz3,
    View.ld_unit_zero (S := S512x512) hz2, View.ld_unit_zero (S := S512) hz1]

/-- and the first last-row buffer ends at the last row of the first activation, -/
theorem last0_B (c : Dev nD) (i : grid0.Coords) (arg2 : Memref sig .tc .vmem S1x512x512 .f32) (harg2 : arg2.IsWhole) (arg3 : Memref sig .tc .vmem S512x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x512 .f32) (harg7 : arg7.IsWhole) (arg8 : Memref sig .tc .vmem S512 .f32) (harg8 : arg8.IsWhole) (arg9 : Memref sig .tc .vmem S1x512x512 .f32) (harg9 : arg9.IsWhole) (arg10 : Memref sig .tc .vmem S1x1x512 .f32) (harg10 : arg10.IsWhole) (arg11 : Memref sig .tc .vmem S1x1x512 .f32) (harg11 : arg11.IsWhole) (hc0 : cond0_0 i)
    (x0 : Vec F S1x512x512 .f32) (x1 : Vec F S512x512 .f32) (x2 : Vec F S512 .f32) (x3 : Vec F S512x512 .f32) (x4 : Vec F S512 .f32) (x5 : Vec F S512x512 .f32) (x6 : Vec F S512 .f32) :
    out0_B_8 c i arg2 harg2 arg3 harg3 arg4 harg4 arg5 harg5 arg6 harg6 arg7 harg7 arg8 harg8 arg9 harg9 arg10 harg10 arg11 harg11 hc0 x0 x1 x2 x3 x4 x5 x6 = k0_pay4 x0 x1 x2 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 x4 x5 x6)]
  unfold kernelRun0_B
  dsimp only
  rw [View.canon_unit_zero hz3]
  simp only [View.readAt_eq_ld, harg2.read_unread, harg3.read_unread, harg4.read_unread, harg5.read_unread,
    harg6.read_unread, harg7.read_unread, harg8.read_unread, View.ld_unit_zero (S := S1x512x512) hz3,
    View.ld_unit_zero (S := S512x512) hz2, View.ld_unit_zero (S := S512) hz1]

/-- the second at the last row of the second activation. -/
theorem last1_B (c : Dev nD) (i : grid0.Coords) (arg2 : Memref sig .tc .vmem S1x512x512 .f32) (harg2 : arg2.IsWhole) (arg3 : Memref sig .tc .vmem S512x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x512 .f32) (harg7 : arg7.IsWhole) (arg8 : Memref sig .tc .vmem S512 .f32) (harg8 : arg8.IsWhole) (arg9 : Memref sig .tc .vmem S1x512x512 .f32) (harg9 : arg9.IsWhole) (arg10 : Memref sig .tc .vmem S1x1x512 .f32) (harg10 : arg10.IsWhole) (arg11 : Memref sig .tc .vmem S1x1x512 .f32) (harg11 : arg11.IsWhole) (hc0 : cond0_0 i)
    (x0 : Vec F S1x512x512 .f32) (x1 : Vec F S512x512 .f32) (x2 : Vec F S512 .f32) (x3 : Vec F S512x512 .f32) (x4 : Vec F S512 .f32) (x5 : Vec F S512x512 .f32) (x6 : Vec F S512 .f32) :
    out0_B_9 c i arg2 harg2 arg3 harg3 arg4 harg4 arg5 harg5 arg6 harg6 arg7 harg7 arg8 harg8 arg9 harg9 arg10 harg10 arg11 harg11 hc0 x0 x1 x2 x3 x4 x5 x6 = k0_pay5 x0 x1 x2 x3 x4 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 hc0 x0 x1 x2 x3 x4 x5 x6)]
  unfold kernelRun0_B
  dsimp only
  rw [View.canon_unit_zero hz3]
  simp only [View.readAt_eq_ld, harg2.read_unread, harg3.read_unread, harg4.read_unread, harg5.read_unread,
    harg6.read_unread, harg7.read_unread, harg8.read_unread, View.ld_unit_zero (S := S1x512x512) hz3,
    View.ld_unit_zero (S := S512x512) hz2, View.ld_unit_zero (S := S512) hz1]

end Cert.KernelIdeal.Tiles

end
-- ==== Proof.PointBlocks.lean ====
/-
  One grid point: which blocks it sees, and what it leaves.

  The grid has 32 points; point `t` works on sequence `t / 4`, rows `512 · (t % 4)` to `512 · (t % 4) + 511`: the input
  and output windows' block indices there are `(t / 4, t % 4, 0)`, the weight and bias windows always show their whole
  arrays, and the two last-row windows show block `(t / 4, 0, 0)` of their [8, 1, 512] arrays. After the body at any point
  the output tile's buffer holds the third layer's tile of the point's blocks; where `t % 4 = 3` the two last-row buffers
  hold the last rows of the two activations of those blocks.
-/
import proofs.«131985_j40776419508632_2_alg».proof.Proof.Gen.KernelIdeal.Frame
import proofs.«131985_j40776419508632_2_alg».proof.Proof.TileValues
import Idealize.ShloMosaic.Lib.Pipeline.Value
import Idealize.ShloMosaic.PureOps.Ideal

noncomputable section

open Idealize.ShloMosaic Idealize.ShloMosaic.TcCoe Idealize.SL.Sem
open Idealize.ShloMosaic.Pipeline (Dat)

namespace Cert.KernelIdeal.Points

open Cert.KernelIdeal Cert.KernelIdeal.Gen Cert.KernelIdeal.Tiles

variable (m : (ℓ : Loc nD τ sig) → Buf (Elt Ideal) ℓ)

/-! ## The index maps, decided over the grid -/

/-- The input's and the three outputs' block indices at point `t`. -/
theorem moving_idx : ∀ t : Fin cfg0.N,
    win0_0.index t (0 : Fin 3) = t.val / 4 ∧ win0_0.index t (1 : Fin 3) = t.val % 4 ∧ win0_0.index t (2 : Fin 3) = 0
    ∧ win0_7.index t (0 : Fin 3) = t.val / 4 ∧ win0_7.index t (1 : Fin 3) = t.val % 4 ∧ win0_7.index t (2 : Fin 3) = 0
    ∧ win0_8.index t (0 : Fin 3) = t.val / 4 ∧ win0_8.index t (1 : Fin 3) = 0 ∧ win0_8.index t (2 : Fin 3) = 0
    ∧ win0_9.index t (0 : Fin 3) = t.val / 4 ∧ win0_9.index t (1 : Fin 3) = 0 ∧ win0_9.index t (2 : Fin 3) = 0 :=
  (by decide +kernel : ∀ t : Fin grid0.N, _)

/-- The weights' and biases' block indices are zero at every point. -/
theorem still_idx : ∀ t : Fin cfg0.N,
    win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0 :=
  (by decide +kernel : ∀ t : Fin grid0.N, _)

/-! ## The blocks a point sees, at their literal shapes -/

set_option maxHeartbeats 2000000 in
/-- The input tile at point `t`. -/
abbrev xTile (c : Dev nD) (t : Fin cfg0.N) : Vec Ideal S1x512x512 .f32 := iblk m c 0 t

set_option maxHeartbeats 2000000 in
/-- The first weights' block at point `t`. -/
abbrev w0Blk (c : Dev nD) (t : Fin cfg0.N) : Vec Ideal S512x512 .f32 := iblk m c 1 t

set_option maxHeartbeats 2000000 in
/-- The first bias's block. -/
abbrev b0Blk (c : Dev nD) (t : Fin cfg0.N) : Vec Ideal S512 .f32 := iblk m c 2 t

set_option maxHeartbeats 2000000 in
/-- The second weights' block. -/
abbrev w1Blk (c : Dev nD) (t : Fin cfg0.N) : Vec Ideal S512x512 .f32 := iblk m c 3 t

set_option maxHeartbeats 2000000 in
/-- The second bias's block. -/
abbrev b1Blk (c : Dev nD) (t : Fin cfg0.N) : Vec Ideal S512 .f32 := iblk m c 4 t

set_option maxHeartbeats 2000000 in
/-- The head weights' block. -/
abbrev wtBlk (c : Dev nD) (t : Fin cfg0.N) : Vec Ideal S512x512 .f32 := iblk m c 5 t

set_option maxHeartbeats 2000000 in
/-- The head bias's block. -/
abbrev btBlk (c : Dev nD) (t : Fin cfg0.N) : Vec Ideal S512 .f32 := iblk m c 6 t

/-! ## The weight and bias blocks are the whole arrays -/

theorem w0Blk_whole (c : Dev nD) (t : Fin cfg0.N) : w0Blk m c t = V m c main_arg1 := by
  obtain ⟨e1_0, e1_1, e2_0, e3_0, e3_1, e4_0, e5_0, e5_1, e6_0⟩ := still_idx t
  funext j
  unfold w0Blk iblk
  rw [View.read_apply]
  show V m c main_arg1 (((cfg0.win 1).blk t).view.emb j) = V m c main_arg1 j
  refine congrArg (V m c main_arg1) (funext fun a => Fin.ext ?_)
  match a with
  | ⟨0, _⟩ => show win0_1.index t (0 : Fin 2) * 512 + 1 * (j 0).val = (j 0).val; omega
  | ⟨1, _⟩ => show win0_1.index t (1 : Fin 2) * 512 + 1 * (j 1).val = (j 1).val; omega

theorem b0Blk_whole (c : Dev nD) (t : Fin cfg0.N) : b0Blk m c t = V m c main_arg2 := by
  obtain ⟨e1_0, e1_1, e2_0, e3_0, e3_1, e4_0, e5_0, e5_1, e6_0⟩ := still_idx t
  funext j
  unfold b0Blk iblk
  rw [View.read_apply]
  show V m c main_arg2 (((cfg0.win 2).blk t).view.emb j) = V m c main_arg2 j
  refine congrArg (V m c main_arg2) (funext fun a => Fin.ext ?_)
  match a with
  | ⟨0, _⟩ => show win0_2.index t (0 : Fin 1) * 512 + 1 * (j 0).val = (j 0).val; omega

theorem w1Blk_whole (c : Dev nD) (t : Fin cfg0.N) : w1Blk m c t = V m c main_arg3 := by
  obtain ⟨e1_0, e1_1, e2_0, e3_0, e3_1, e4_0, e5_0, e5_1, e6_0⟩ := still_idx t
  funext j
  unfold w1Blk iblk
  rw [View.read_apply]
  show V m c main_arg3 (((cfg0.win 3).blk t).view.emb j) = V m c main_arg3 j
  refine congrArg (V m c main_arg3) (funext fun a => Fin.ext ?_)
  match a with
  | ⟨0, _⟩ => show win0_3.index t (0 : Fin 2) * 512 + 1 * (j 0).val = (j 0).val; omega
  | ⟨1, _⟩ => show win0_3.index t (1 : Fin 2) * 512 + 1 * (j 1).val = (j 1).val; omega

theorem b1Blk_whole (c : Dev nD) (t : Fin cfg0.N) : b1Blk m c t = V m c main_arg4 := by
  obtain ⟨e1_0, e1_1, e2_0, e3_0, e3_1, e4_0, e5_0, e5_1, e6_0⟩ := still_idx t
  funext j
  unfold b1Blk iblk
  rw [View.read_apply]
  show V m c main_arg4 (((cfg0.win 4).blk t).view.emb j) = V m c main_arg4 j
  refine congrArg (V m c main_arg4) (funext fun a => Fin.ext ?_)
  match a with
  | ⟨0, _⟩ => show win0_4.index t (0 : Fin 1) * 512 + 1 * (j 0).val = (j 0).val; omega

theorem wtBlk_whole (c : Dev nD) (t : Fin cfg0.N) : wtBlk m c t = V m c main_arg5 := by
  obtain ⟨e1_0, e1_1, e2_0, e3_0, e3_1, e4_0, e5_0, e5_1, e6_0⟩ := still_idx t
  funext j
  unfold wtBlk iblk
  rw [View.read_apply]
  show V m c main_arg5 (((cfg0.win 5).blk t).view.emb j) = V m c main_arg5 j
  refine congrArg (V m c main_arg5) (funext fun a => Fin.ext ?_)
  match a with
  | ⟨0, _⟩ => show win0_5.index t (0 : Fin 2) * 512 + 1 * (j 0).val = (j 0).val; omega
  | ⟨1, _⟩ => show win0_5.index t (1 : Fin 2) * 512 + 1 * (j 1).val = (j 1).val; omega

theorem btBlk_whole (c : Dev nD) (t : Fin cfg0.N) : btBlk m c t = V m c main_arg6 := by
  obtain ⟨e1_0, e1_1, e2_0, e3_0, e3_1, e4_0, e5_0, e5_1, e6_0⟩ := still_idx t
  funext j
  unfold btBlk iblk
  rw [View.read_apply]
  show V m c main_arg6 (((cfg0.win 6).blk t).view.emb j) = V m c main_arg6 j
  refine congrArg (V m c main_arg6) (funext fun a => Fin.ext ?_)
  match a with
  | ⟨0, _⟩ => show win0_6.index t (0 : Fin 1) * 512 + 1 * (j 0).val = (j 0).val; omega

/-- An entry of the input tile at point `t`, in the whole input. -/
theorem xTile_apply (c : Dev nD) (t : Fin cfg0.N) (z : S1x512x512.Idx) :
    xTile m c t z = V m c main_arg0 (((cfg0.win 0).blk t).view.emb z) := by
  unfold xTile iblk
  rw [View.read_apply]
  rfl

/-! ## What each point leaves in the output buffers -/

set_option maxHeartbeats 2000000 in
/-- After the body at ANY point the output tile's buffer holds the third layer's tile of the point's blocks. -/
theorem tileAt (c : Dev nD) (t : Fin cfg0.N) :
    (outsAt0 m c t.val t.isLt).1 = k0_pay3 (xTile m c t) (w0Blk m c t) (b0Blk m c t) (w1Blk m c t) (b1Blk m c t) (wtBlk m c t) (btBlk m c t) := by
  by_cases h0 : t.val % 4 = 3
  · rw [outsAt0_B m c t h0]
    dsimp only
    exact tile_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t) (iblk m c 6 t)
  · rw [outsAt0_A m c t h0]
    dsimp only
    exact tile_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t) (iblk m c 6 t)

set_option maxHeartbeats 2000000 in
/-- After the body at a sequence's last tile the first last-row buffer holds the last row of the first activation, -/
theorem last0At (c : Dev nD) (t : Fin cfg0.N) (h0 : t.val % 4 = 3) :
    (outsAt0 m c t.val t.isLt).2.1 = k0_pay4 (xTile m c t) (w0Blk m c t) (b0Blk m c t) := by
  rw [outsAt0_B m c t h0]
  dsimp only
  exact last0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t) (iblk m c 6 t)

set_option maxHeartbeats 2000000 in
/-- and the second the last row of the second activation. -/
theorem last1At (c : Dev nD) (t : Fin cfg0.N) (h0 : t.val % 4 = 3) :
    (outsAt0 m c t.val t.isLt).2.2
      = k0_pay5 (xTile m c t) (w0Blk m c t) (b0Blk m c t) (w1Blk m c t) (b1Blk m c t) := by
  rw [outsAt0_B m c t h0]
  dsimp only
  exact last1_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t) (iblk m c 6 t)

end Cert.KernelIdeal.Points

end
-- ==== Proof.LibMatmulRows.lean ====
/-
  A matrix product of the rows of two matrices, read at an index.

  A `tpu.matmul` whose dimension numbers contract axis 1 of the left operand with axis 1 of the right one, with no
  batch axes — an [A, K] matrix against a [B, K] matrix, every row of the first against every row of the second, the
  product a kernel writes as "x · yᵀ" without forming the transpose — into the zero accumulator is, at the ideal values
  and at output position (p, q), the sum over k < K of left(p, k) · right(q, k): the contraction shape has the one axis
  of extent K, and the operand indices at output (p, q) and contraction position k are (p, k) and (q, k).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a product of rows with rows: rows × contraction against rows × contraction. -/
abbrev rows2 (wf : DotDims.WF ⟨2, ![A, K]⟩ ⟨2, ![B, K]⟩ ⟨2, ![A, B]⟩ [1] [1] [0] [0] [] []) :
    DotDims ⟨2, ![A, K]⟩ ⟨2, ![B, K]⟩ ⟨2, ![A, B]⟩ := ⟨[1], [1], [0], [0], [], [], wf⟩

/-- Its contraction shape has one axis, -/
theorem rows2_rank (wf : DotDims.WF ⟨2, ![A, K]⟩ ⟨2, ![B, K]⟩ ⟨2, ![A, B]⟩ [1] [1] [0] [0] [] []) :
    (rows2 wf).contr.rank = 1 := rfl

/-- of extent `K`. -/
theorem rows2_size (wf : DotDims.WF ⟨2, ![A, K]⟩ ⟨2, ![B, K]⟩ ⟨2, ![A, B]⟩ [1] [1] [0] [0] [] []) :
    (rows2 wf).contr.size ⟨0, by rw [rows2_rank]; exact Nat.one_pos⟩ = K := rfl

/-- The product into the zero accumulator at (p, q) is `∑ k, l (p, k) * r (q, k)`. -/
theorem matmulRows_zero_apply (wf : DotDims.WF ⟨2, ![A, K]⟩ ⟨2, ![B, K]⟩ ⟨2, ![A, B]⟩ [1] [1] [0] [0] [] [])
    (l : FVec Ideal ⟨2, ![A, K]⟩ φ₁) (r : FVec Ideal ⟨2, ![B, K]⟩ φ₂) (p : Fin A) (q : Fin B) :
    matmul (rows2 wf) none l r (constant ⟨2, ![A, B]⟩ .f32 0x00000000#32) (ix2 p q)
      = ∑ k : Fin K, l (ix2 p k) * r (ix2 q k) := by
  refine (Ideal.matmul_constant_zero_apply (rows2 wf) none l r (ix2 p q)).trans ?_
  refine (Equiv.sum_comp (contrEquiv1 (rows2 wf) K (rows2_rank wf) (rows2_size wf)).symm _).symm.trans ?_
  refine Finset.sum_congr rfl fun k _ => ?_
  have hk := contrEquiv1_symm_val (rows2 wf) K (rows2_rank wf) (rows2_size wf) k
  have hl : (rows2 wf).lhsIdx (ix2 p q) ((contrEquiv1 (rows2 wf) K (rows2_rank wf) (rows2_size wf)).symm k) = ix2 p k := by
    funext a; apply Fin.ext
    match a with
    | ⟨0, _⟩ => simp [DotDims.lhsIdx]; rfl
    | ⟨1, _⟩ => exact (DotDims.lhsIdx_val_of_single (rows2 wf) (cl := 1) rfl (ix2 p q) _).trans hk
  have hr : (rows2 wf).rhsIdx (ix2 p q) ((contrEquiv1 (rows2 wf) K (rows2_rank wf) (rows2_size wf)).symm k) = ix2 q k := by
    funext a; apply Fin.ext
    match a with
    | ⟨0, _⟩ => simp [DotDims.rhsIdx]; rfl
    | ⟨1, _⟩ => exact (DotDims.rhsIdx_val_of_single (rows2 wf) (cr := 1) rfl (ix2 p q) _).trans hk
  show l _ * r _ = _
  rw [hl, hr]

end Cert.Lib

end
-- ==== Proof.DenseLayers.lean ====
/-
  Three dense layers applied to one row.

  Both programs compute, for each of the 8 · 2048 rows `v` of the input (512 entries each),
      a₀ = tanh (W₀ v + b₀),   a₁ = tanh (W₁ a₀ + b₁),   y = W_t a₁ + b_t,
  where a weight matrix acts by its rows, `(W v) h = ∑ k, v k · W h k`, and return `y` for every row together with
  `a₀` and `a₁` of the last row (position 2047) of each of the 8 sequences. Over the extended reals a finite sum is a
  sum in an additive commutative monoid and `tanh` is total (`-1` at `⊥`, `1` at `⊤`), so these are plain definitions,
  and the results as whole arrays are read off them index by index.
-/
import Idealize.ShloMosaic.PureOps.Ideal
import Idealize.ShloMosaic.Lib.ValueIdx

noncomputable section

namespace Cert.Layers

open Idealize.ShloMosaic Idealize.ShloMosaic.ValueIdx

/-- A dense layer on the row `v`: entry `h` is the row against row `h` of the weights, plus the bias. -/
def dense (v : Fin 512 → EReal) (W : Fin 512 → Fin 512 → EReal) (b : Fin 512 → EReal) (h : Fin 512) : EReal :=
  (∑ k : Fin 512, v k * W h k) + b h

/-- The first hidden activation of the row `v`. -/
def act0 (v : Fin 512 → EReal) (W0 : Fin 512 → Fin 512 → EReal) (b0 : Fin 512 → EReal) (h : Fin 512) : EReal :=
  Ideal.tanh (dense v W0 b0 h)

/-- The second hidden activation: the same layer shape applied to the first. -/
def act1 (v : Fin 512 → EReal) (W0 : Fin 512 → Fin 512 → EReal) (b0 : Fin 512 → EReal)
    (W1 : Fin 512 → Fin 512 → EReal) (b1 : Fin 512 → EReal) (h : Fin 512) : EReal :=
  Ideal.tanh (dense (act0 v W0 b0) W1 b1 h)

/-- The output head: a dense layer on the second activation, no nonlinearity. -/
def head (v : Fin 512 → EReal) (W0 : Fin 512 → Fin 512 → EReal) (b0 : Fin 512 → EReal)
    (W1 : Fin 512 → Fin 512 → EReal) (b1 : Fin 512 → EReal) (Wt : Fin 512 → Fin 512 → EReal) (bt : Fin 512 → EReal)
    (h : Fin 512) : EReal :=
  dense (act1 v W0 b0 W1 b1) Wt bt h

/-! ## The arrays, by coordinates -/

/-- A [512, 512] array as a matrix, -/
abbrev mat (w : (⟨2, ![512, 512]⟩ : Shape).Idx → EReal) : Fin 512 → Fin 512 → EReal := fun h k => w (ix2 h k)
/-- a [512] array as a vector, -/
abbrev vec (b : (⟨1, ![512]⟩ : Shape).Idx → EReal) : Fin 512 → EReal := fun h => b (ix1 h)
/-- and row `s` of sequence `n` of the [8, 2048, 512] input. -/
abbrev seqRow (x : (⟨3, ![8, 2048, 512]⟩ : Shape).Idx → EReal) (n : Fin 8) (s : Fin 2048) : Fin 512 → EReal :=
  fun k => x (ix3 n s k)

/-- The last position of a sequence. -/
abbrev lastPos : Fin 2048 := ⟨2047, by decide⟩

/-- The per-position outputs as one [8, 2048, 512] array. -/
def outputs (x : (⟨3, ![8, 2048, 512]⟩ : Shape).Idx → EReal)
    (w0 : (⟨2, ![512, 512]⟩ : Shape).Idx → EReal) (b0 : (⟨1, ![512]⟩ : Shape).Idx → EReal)
    (w1 : (⟨2, ![512, 512]⟩ : Shape).Idx → EReal) (b1 : (⟨1, ![512]⟩ : Shape).Idx → EReal)
    (wt : (⟨2, ![512, 512]⟩ : Shape).Idx → EReal) (bt : (⟨1, ![512]⟩ : Shape).Idx → EReal) :
    (⟨3, ![8, 2048, 512]⟩ : Shape).Idx → EReal :=
  fun i => head (seqRow x (i 0) (i 1)) (mat w0) (vec b0) (mat w1) (vec b1) (mat wt) (vec bt) (i 2)

/-- The first activation at the last position of each sequence, as an [8, 1, 512] array. -/
def lastAct0 (x : (⟨3, ![8, 2048, 512]⟩ : Shape).Idx → EReal)
    (w0 : (⟨2, ![512, 512]⟩ : Shape).Idx → EReal) (b0 : (⟨1, ![512]⟩ : Shape).Idx → EReal) :
    (⟨3, ![8, 1, 512]⟩ : Shape).Idx → EReal :=
  fun i => act0 (seqRow x (i 0) lastPos) (mat w0) (vec b0) (i 2)

/-- The second activation at the last position of each sequence, as an [8, 1, 512] array. -/
def lastAct1 (x : (⟨3, ![8, 2048, 512]⟩ : Shape).Idx → EReal)
    (w0 : (⟨2, ![512, 512]⟩ : Shape).Idx → EReal) (b0 : (⟨1, ![512]⟩ : Shape).Idx → EReal)
    (w1 : (⟨2, ![512, 512]⟩ : Shape).Idx → EReal) (b1 : (⟨1, ![512]⟩ : Shape).Idx → EReal) :
    (⟨3, ![8, 1, 512]⟩ : Shape).Idx → EReal :=
  fun i => act1 (seqRow x (i 0) lastPos) (mat w0) (vec b0) (mat w1) (vec b1) (i 2)

end Cert.Layers

end
-- ==== Proof.BodyRows.lean ====
/-
  The kernel body's stored values, read entry by entry.

  At one grid point the body holds a [1, 512, 512] tile of the input (512 consecutive rows of one sequence) and the three
  weight matrices and biases whole. It forms, for the whole tile at once, the product of the tile's rows with the weight
  rows into a zero accumulator, adds the bias row broadcast over the tile, and applies `tanh`; twice; then the third
  product and bias without `tanh`. Changes of float format are the identity on the extended reals. So entry `(p, q)` of
  each stage is that stage of `Cert.Layers` on row `p` of the tile at `q`; the last row of the tile, cut out as a
  [1, 1, 512] block, is row 511's.
-/
import proofs.«131985_j40776419508632_2_alg».proof.Proof.Gen.KernelIdeal.Skeleton
import proofs.«131985_j40776419508632_2_alg».proof.Proof.LibMatmulRows
import proofs.«131985_j40776419508632_2_alg».proof.Proof.DenseLayers
import Idealize.ShloMosaic.Lib.ValueLayout

noncomputable section

namespace Cert.KernelIdeal.Rows

open Cert.KernelIdeal Cert.KernelIdeal.Gen Idealize.ShloMosaic Idealize.ShloMosaic.ValueIdx Cert.Layers
/-- Row `p` of a [1, 512, 512] tile. -/
abbrev tileRow (x : Vec Ideal S1x512x512 .f32) (p : Fin 512) : Fin 512 → EReal := fun k => x (ix3 (0 : Fin 1) p k)

/-- The last row of a tile. -/
abbrev lastRow : Fin 512 := ⟨511, by decide⟩

/-- The bias, cast to one row and broadcast over the tile's rows, reads at `(p, q)` the bias at `q`. -/
theorem biasRows_apply (b : Vec Ideal S512 .f32) (p q : Fin 512) :
    broadcastTo S512x512 (shapeCast S1x512 b shapeCasts_S512_S1x512) broadcasts_S1x512_S512x512 (ix2 p q) = b (ix1 q) :=
  (broadcastTo_1b_ab_apply _ _ p q).trans (shapeCast_a_1a_apply b _ 0 q)

/-- The product of the rows of `l` with the rows of `w` into the zero accumulator, plus the bias row: at `(p, q)` the dense
    layer on row `p` of `l`, at `q`. -/
theorem denseTile_apply (l w : FVec Ideal S512x512 .bf16) (b : Vec Ideal S512 .f32) (p q : Fin 512) :
    addf (matmul dot_S512x512_S512x512_S512x512_1_1_0_0_n_n none l w (constant S512x512 .f32 0x00000000#32))
        (broadcastTo S512x512 (shapeCast S1x512 b shapeCasts_S512_S1x512) broadcasts_S1x512_S512x512) (ix2 p q)
      = dense (fun k => l (ix2 p k)) (fun h k => w (ix2 h k)) (vec b) q := by
  refine (addf_apply _ _ _).trans ?_
  unfold dense
  exact congrArg₂ (· + ·)
    (Cert.Lib.matmulRows_zero_apply dot_S512x512_S512x512_S512x512_1_1_0_0_n_n_wf l w p q) (biasRows_apply b p q)

/-- The first activation of the tile, at `(p, q)`. -/
theorem pay1_apply (x0 : Vec Ideal S1x512x512 .f32) (x1 : Vec Ideal S512x512 .f32) (x2 : Vec Ideal S512 .f32) (p q : Fin 512) :
    k0_pay1 (F := Ideal) x0 x1 x2 (ix2 p q) = act0 (tileRow x0 p) (mat x1) (vec x2) q := by
  unfold k0_pay1 act0
  refine congrArg Ideal.tanh ((denseTile_apply _ _ x2 p q).trans ?_)
  exact congrArg (fun v => dense v (mat x1) (vec x2) q) (funext fun k => shapeCast_1ab_ab_apply x0 _ p k)

/-- The second activation of the tile, at `(p, q)`. -/
theorem pay2_apply (x0 : Vec Ideal S1x512x512 .f32) (x1 : Vec Ideal S512x512 .f32) (x2 : Vec Ideal S512 .f32)
    (x3 : Vec Ideal S512x512 .f32) (x4 : Vec Ideal S512 .f32) (p q : Fin 512) :
    k0_pay2 (F := Ideal) x0 x1 x2 x3 x4 (ix2 p q) = act1 (tileRow x0 p) (mat x1) (vec x2) (mat x3) (vec x4) q := by
  unfold k0_pay2 act1
  refine congrArg Ideal.tanh ((denseTile_apply _ _ x4 p q).trans ?_)
  exact congrArg (fun v => dense v (mat x3) (vec x4) q) (funext fun k => pay1_apply x0 x1 x2 p k)

/-- The output tile, stored as a [1, 512, 512] block, at `(u, p, q)`. -/
theorem pay3_apply (x0 : Vec Ideal S1x512x512 .f32) (x1 : Vec Ideal S512x512 .f32) (x2 : Vec Ideal S512 .f32)
    (x3 : Vec Ideal S512x512 .f32) (x4 : Vec Ideal S512 .f32) (x5 : Vec Ideal S512x512 .f32) (x6 : Vec Ideal S512 .f32)
    (u : Fin 1) (p q : Fin 512) :
    k0_pay3 (F := Ideal) x0 x1 x2 x3 x4 x5 x6 (ix3 u p q)
      = head (tileRow x0 p) (mat x1) (vec x2) (mat x3) (vec x4) (mat x5) (vec x6) q := by
  unfold k0_pay3 head
  refine (shapeCast_ab_1ab_apply _ _ u p q).trans ((denseTile_apply _ _ x6 p q).trans ?_)
  exact congrArg (fun v => dense v (mat x5) (vec x6) q) (funext fun k => pay2_apply x0 x1 x2 x3 x4 p k)

/-- The last row of the first activation, stored as a [1, 1, 512] block. -/
theorem pay4_apply (x0 : Vec Ideal S1x512x512 .f32) (x1 : Vec Ideal S512x512 .f32) (x2 : Vec Ideal S512 .f32)
    (u v : Fin 1) (q : Fin 512) :
    k0_pay4 (F := Ideal) x0 x1 x2 (ix3 u v q) = act0 (tileRow x0 lastRow) (mat x1) (vec x2) q := by
  unfold k0_pay4
  refine (shapeCast_ab_1ab_apply _ _ u v q).trans ?_
  refine (slice2_axis0_apply 511 _ _ v q lastRow ?_).trans (pay1_apply x0 x1 x2 lastRow q)
  have hv := v.isLt
  show 511 = 511 + v.val
  omega

/-- The last row of the second activation, stored as a [1, 1, 512] block. -/
theorem pay5_apply (x0 : Vec Ideal S1x512x512 .f32) (x1 : Vec Ideal S512x512 .f32) (x2 : Vec Ideal S512 .f32)
    (x3 : Vec Ideal S512x512 .f32) (x4 : Vec Ideal S512 .f32) (u v : Fin 1) (q : Fin 512) :
    k0_pay5 (F := Ideal) x0 x1 x2 x3 x4 (ix3 u v q)
      = act1 (tileRow x0 lastRow) (mat x1) (vec x2) (mat x3) (vec x4) q := by
  unfold k0_pay5
  refine (shapeCast_ab_1ab_apply _ _ u v q).trans ?_
  refine (slice2_axis0_apply 511 _ _ v q lastRow ?_).trans (pay2_apply x0 x1 x2 x3 x4 lastRow q)
  have hv := v.isLt
  show 511 = 511 + v.val
  omega

end Cert.KernelIdeal.Rows

end
-- ==== Proof.OutputArrays.lean ====
/-
  The three output arrays after the run.

  Every point writes its output tile back and the tiles tile the [8, 2048, 512] array; the points with `t % 4 = 3` write the
  8 blocks of each [8, 1, 512] array. Row `p` of the tile at point `t` is row `512 · (t % 4) + p` of sequence `t / 4` of the
  input, and the last row of a sequence's last tile is position 2047. So each array ends as the one function of the
  argument arrays that `Cert.Layers` names, index by index.
-/
import proofs.«131985_j40776419508632_2_alg».proof.Proof.PointBlocks
import proofs.«131985_j40776419508632_2_alg».proof.Proof.BodyRows

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.Layers Cert.KernelIdeal.Rows Cert.KernelIdeal.Points
open Idealize.ShloMosaic.ValueIdx

variable (m : (ℓ : Loc nD τ sig) → Buf (Elt Ideal) ℓ) (ρ : Dev nD → PrngReg)

/-! ## One entry of a tile, in the whole array's terms -/

/-- Entry `y` of the third layer's tile of a block `x0` whose row `y 1` is row `(i 0, i 1)` of the whole input, at the
    column `y 2 = i 2`, is entry `i` of the per-position outputs. -/
theorem tile_entry (x0 : Vec Ideal S1x512x512 .f32) (X0 : S8x2048x512.Idx → EReal) (x1 : Vec Ideal S512x512 .f32)
    (x2 : Vec Ideal S512 .f32) (x3 : Vec Ideal S512x512 .f32) (x4 : Vec Ideal S512 .f32) (x5 : Vec Ideal S512x512 .f32)
    (x6 : Vec Ideal S512 .f32) (y : S1x512x512.Idx) (i : S8x2048x512.Idx)
    (hrow : ∀ k : Fin 512, x0 (ix3 (0 : Fin 1) (y 1) k) = X0 (ix3 (i 0) (i 1) k)) (hcol : y 2 = i 2) :
    k0_pay3 (F := Ideal) x0 x1 x2 x3 x4 x5 x6 y = outputs X0 x1 x2 x3 x4 x5 x6 i := by
  refine (congrArg (k0_pay3 (F := Ideal) x0 x1 x2 x3 x4 x5 x6) (eq_ix3 y)).trans
    ((pay3_apply x0 x1 x2 x3 x4 x5 x6 (y 0) (y 1) (y 2)).trans ?_)
  unfold outputs
  rw [← hcol]
  exact congrArg (fun v => head v (mat x1) (vec x2) (mat x3) (vec x4) (mat x5) (vec x6) (y 2)) (funext hrow)

/-- Entry `y` of the last row of the first activation of a block whose last row is position 2047 of sequence `i 0`. -/
theorem last0_entry (x0 : Vec Ideal S1x512x512 .f32) (X0 : S8x2048x512.Idx → EReal) (x1 : Vec Ideal S512x512 .f32)
    (x2 : Vec Ideal S512 .f32) (y : S1x1x512.Idx) (i : S8x1x512.Idx)
    (hrow : ∀ k : Fin 512, x0 (ix3 (0 : Fin 1) lastRow k) = X0 (ix3 (i 0) lastPos k)) (hcol : y 2 = i 2) :
    k0_pay4 (F := Ideal) x0 x1 x2 y = lastAct0 X0 x1 x2 i := by
  refine (congrArg (k0_pay4 (F := Ideal) x0 x1 x2) (eq_ix3 y)).trans ((pay4_apply x0 x1 x2 (y 0) (y 1) (y 2)).trans ?_)
  unfold lastAct0
  rw [← hcol]
  exact congrArg (fun v => act0 v (mat x1) (vec x2) (y 2)) (funext hrow)

/-- The same of the second activation. -/
theorem last1_entry (x0 : Vec Ideal S1x512x512 .f32) (X0 : S8x2048x512.Idx → EReal) (x1 : Vec Ideal S512x512 .f32)
    (x2 : Vec Ideal S512 .f32) (x3 : Vec Ideal S512x512 .f32) (x4 : Vec Ideal S512 .f32) (y : S1x1x512.Idx) (i : S8x1x512.Idx)
    (hrow : ∀ k : Fin 512, x0 (ix3 (0 : Fin 1) lastRow k) = X0 (ix3 (i 0) lastPos k)) (hcol : y 2 = i 2) :
    k0_pay5 (F := Ideal) x0 x1 x2 x3 x4 y = lastAct1 X0 x1 x2 x3 x4 i := by
  refine (congrArg (k0_pay5 (F := Ideal) x0 x1 x2 x3 x4) (eq_ix3 y)).trans
    ((pay5_apply x0 x1 x2 x3 x4 (y 0) (y 1) (y 2)).trans ?_)
  unfold lastAct1
  rw [← hcol]
  exact congrArg (fun v => act1 v (mat x1) (vec x2) (mat x3) (vec x4) (y 2)) (funext hrow)

/-! ## What each point writes back -/

/-- Point `t` writes back block `t` of the per-position outputs of the argument arrays. -/
theorem flushed7_eq (c : Dev nD) (t : Fin cfg0.N) :
    (dats m 0 c).flushed 7 t
      = ((cfg0.win 7).blk t).view.read (Elt Ideal) (outputs (V m c main_arg0) (V m c main_arg1) (V m c main_arg2) (V m c main_arg3) (V m c main_arg4) (V m c main_arg5) (V m c main_arg6)) := by
  show (cfg0.win 7).cut (grid0.coords t) ((dats m 0 c).after 7 t) = _
  rw [after0_7, tileAt m c t, w0Blk_whole m c t, b0Blk_whole m c t, w1Blk_whole m c t, b1Blk_whole m c t, wtBlk_whole m c t,
    btBlk_whole m c t]
  obtain ⟨a0, a1, a2, o0, o1, o2, -⟩ := moving_idx t
  funext y
  rw [View.read_apply]
  show k0_pay3 (F := Ideal) (xTile m c t) (V m c main_arg1) (V m c main_arg2) (V m c main_arg3) (V m c main_arg4)
      (V m c main_arg5) (V m c main_arg6) y = outputs (V m c main_arg0) (V m c main_arg1) (V m c main_arg2) (V m c main_arg3) (V m c main_arg4) (V m c main_arg5) (V m c main_arg6)
      (((cfg0.win 7).blk t).view.emb y)
  refine tile_entry (xTile m c t) (V m c main_arg0) (V m c main_arg1) (V m c main_arg2) (V m c main_arg3) (V m c main_arg4)
    (V m c main_arg5) (V m c main_arg6) y (((cfg0.win 7).blk t).view.emb y) (fun k => ?_) ?_
  · rw [xTile_apply m c t]
    refine congrArg (V m c main_arg0) (funext fun a => Fin.ext ?_)
    have hy0 : (y 0).val < 1 := (y 0).isLt
    match a with
    | ⟨0, _⟩ => show win0_0.index t (0 : Fin 3) * 1 + 1 * 0 = win0_7.index t (0 : Fin 3) * 1 + 1 * (y 0).val; omega
    | ⟨1, _⟩ => show win0_0.index t (1 : Fin 3) * 512 + 1 * (y 1).val = win0_7.index t (1 : Fin 3) * 512 + 1 * (y 1).val; omega
    | ⟨2, _⟩ => show win0_0.index t (2 : Fin 3) * 512 + 1 * k.val = k.val; omega
  · apply Fin.ext
    show (y 2).val = win0_7.index t (2 : Fin 3) * 512 + 1 * (y 2).val
    omega

/-- An index of the [8, 2048, 512] array is in point `t`'s block iff each coordinate is in the block's range. -/
theorem mem_blk7 (t : Fin cfg0.N) (i : S8x2048x512.Idx) :
    i ∈ ((cfg0.win 7).blk t).view.set ↔ ∀ a : Fin 3, win0_7.index t a * S1x512x512.size a ≤ (i a).val
      ∧ (i a).val < win0_7.index t a * S1x512x512.size a + S1x512x512.size a := by
  show i ∈ ((View.whole main_v0_0).slice (win0_7.rect t)).set ↔ _
  rw [View.set_slice_whole, Rect.mem_set_unit]
  exact Iff.rfl

/-- Every index of it is in the block of the point of its sequence and its tile of 512 rows. -/
theorem cover7 (i : S8x2048x512.Idx) :
    ∃ t : Fin cfg0.N, (cfg0.win 7).flush t = true ∧ i ∈ ((cfg0.win 7).blk t).view.set := by
  have h0 : (i 0).val < 8 := (i 0).isLt
  have h1 : (i 1).val < 2048 := (i 1).isLt
  have h2 : (i 2).val < 512 := (i 2).isLt
  obtain ⟨t, ht⟩ : ∃ t : Fin cfg0.N, t.val = 4 * (i 0).val + (i 1).val / 512 :=
    ⟨⟨4 * (i 0).val + (i 1).val / 512, lt_of_lt_of_eq (by omega) (show (32 : Nat) = cfg0.N from N_0.symm)⟩, rfl⟩
  obtain ⟨-, -, -, o0, o1, o2, -⟩ := moving_idx t
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 512 ≤ (i 2).val ∧ (i 2).val < win0_7.index t (2 : Fin 3) * 512 + 512; omega

/-- THE FIRST RESULT's array after the run: the per-position outputs of the argument arrays. -/
theorem final7 (c : Dev nD) :
    (dats m 0 c).arrAt 7 cfg0.N = outputs (V m c main_arg0) (V m c main_arg1) (V m c main_arg2) (V m c main_arg3) (V m c main_arg4) (V m c main_arg5) (V m c main_arg6) :=
  (dats m 0 c).arrAt_eq_of_cover 7 (outputs (V m c main_arg0) (V m c main_arg1) (V m c main_arg2) (V m c main_arg3) (V m c main_arg4) (V m c main_arg5) (V m c main_arg6))
    (fun t _ => flushed7_eq m c t) cover7

/-! ## The two last-row arrays -/

/-- The last row of the tile at a sequence's last point is position 2047 of that sequence. -/
theorem lastRow_eq (c : Dev nD) (t : Fin cfg0.N) (h3 : t.val % 4 = 3) (n : Fin 8) (hn : n.val = t.val / 4) (k : Fin 512) :
    xTile m c t (ix3 (0 : Fin 1) lastRow k) = V m c main_arg0 (ix3 n lastPos k) := by
  obtain ⟨a0, a1, a2, -⟩ := moving_idx t
  rw [xTile_apply m c t]
  refine congrArg (V m c main_arg0) (funext fun a => Fin.ext ?_)
  match a with
  | ⟨0, _⟩ => show win0_0.index t (0 : Fin 3) * 1 + 1 * 0 = n.val; omega
  | ⟨1, _⟩ => show win0_0.index t (1 : Fin 3) * 512 + 1 * 511 = 2047; omega
  | ⟨2, _⟩ => show win0_0.index t (2 : Fin 3) * 512 + 1 * k.val = k.val; omega

/-- A point that writes the first last-row block back writes block `t` of the first activation at position 2047. -/
theorem flushed8_eq (c : Dev nD) (t : Fin cfg0.N) (hf : (cfg0.win 8).flush t = true) :
    (dats m 0 c).flushed 8 t
      = ((cfg0.win 8).blk t).view.read (Elt Ideal) (lastAct0 (V m c main_arg0) (V m c main_arg1) (V m c main_arg2)) := by
  have h3 : t.val % 4 = 3 := (flush0_8 t).mp hf
  show (cfg0.win 8).cut (grid0.coords t) ((dats m 0 c).after 8 t) = _
  rw [after0_8, last0At m c t h3, w0Blk_whole m c t, b0Blk_whole m c t]
  obtain ⟨-, -, -, -, -, -, p0, p1, p2, -⟩ := moving_idx t
  have hN : t.val < 32 := lt_of_lt_of_eq t.isLt (show cfg0.N = 32 from N_0)
  funext y
  rw [View.read_apply]
  show k0_pay4 (F := Ideal) (xTile m c t) (V m c main_arg1) (V m c main_arg2) y
    = lastAct0 (V m c main_arg0) (V m c main_arg1) (V m c main_arg2) (((cfg0.win 8).blk t).view.emb y)
  have hy0 : (y 0).val < 1 := (y 0).isLt
  refine last0_entry (xTile m c t) (V m c main_arg0) (V m c main_arg1) (V m c main_arg2) y
    (((cfg0.win 8).blk t).view.emb y) (fun k => ?_) ?_
  · refine lastRow_eq m c t h3 _ ?_ k
    show win0_8.index t (0 : Fin 3) * 1 + 1 * (y 0).val = t.val / 4
    omega
  · apply Fin.ext
    show (y 2).val = win0_8.index t (2 : Fin 3) * 512 + 1 * (y 2).val
    omega

/-- The same of the second last-row block and the second activation. -/
theorem flushed9_eq (c : Dev nD) (t : Fin cfg0.N) (hf : (cfg0.win 9).flush t = true) :
    (dats m 0 c).flushed 9 t
      = ((cfg0.win 9).blk t).view.read (Elt Ideal) (lastAct1 (V m c main_arg0) (V m c main_arg1) (V m c main_arg2) (V m c main_arg3) (V m c main_arg4)) := by
  have h3 : t.val % 4 = 3 := (flush0_9 t).mp hf
  show (cfg0.win 9).cut (grid0.coords t) ((dats m 0 c).after 9 t) = _
  rw [after0_9, last1At m c t h3, w0Blk_whole m c t, b0Blk_whole m c t, w1Blk_whole m c t, b1Blk_whole m c t]
  obtain ⟨-, -, -, -, -, -, -, -, -, q0, q1, q2⟩ := moving_idx t
  have hN : t.val < 32 := lt_of_lt_of_eq t.isLt (show cfg0.N = 32 from N_0)
  funext y
  rw [View.read_apply]
  show k0_pay5 (F := Ideal) (xTile m c t) (V m c main_arg1) (V m c main_arg2) (V m c main_arg3) (V m c main_arg4) y
    = lastAct1 (V m c main_arg0) (V m c main_arg1) (V m c main_arg2) (V m c main_arg3) (V m c main_arg4) (((cfg0.win 9).blk t).view.emb y)
  have hy0 : (y 0).val < 1 := (y 0).isLt
  refine last1_entry (xTile m c t) (V m c main_arg0) (V m c main_arg1) (V m c main_arg2) (V m c main_arg3) (V m c main_arg4) y
    (((cfg0.win 9).blk t).view.emb y) (fun k => ?_) ?_
  · refine lastRow_eq m c t h3 _ ?_ k
    show win0_9.index t (0 : Fin 3) * 1 + 1 * (y 0).val = t.val / 4
    omega
  · apply Fin.ext
    show (y 2).val = win0_9.index t (2 : Fin 3) * 512 + 1 * (y 2).val
    omega

/-- An index of an [8, 1, 512] array is in point `t`'s block of the first last-row window iff each coordinate is in range, -/
theorem mem_blk8 (t : Fin cfg0.N) (i : S8x1x512.Idx) :
    i ∈ ((cfg0.win 8).blk t).view.set ↔ ∀ a : Fin 3, win0_8.index t a * S1x1x512.size a ≤ (i a).val
      ∧ (i a).val < win0_8.index t a * S1x1x512.size a + S1x1x512.size a := by
  show i ∈ ((View.whole main_v0_1).slice (win0_8.rect t)).set ↔ _
  rw [View.set_slice_whole, Rect.mem_set_unit]
  exact Iff.rfl

/-- and of the second. -/
theorem mem_blk9 (t : Fin cfg0.N) (i : S8x1x512.Idx) :
    i ∈ ((cfg0.win 9).blk t).view.set ↔ ∀ a : Fin 3, win0_9.index t a * S1x1x512.size a ≤ (i a).val
      ∧ (i a).val < win0_9.index t a * S1x1x512.size a + S1x1x512.size a := by
  show i ∈ ((View.whole main_v0_2).slice (win0_9.rect t)).set ↔ _
  rw [View.set_slice_whole, Rect.mem_set_unit]
  exact Iff.rfl

/-- Sequence `n`'s block of a last-row array is written back by the sequence's last point, `4 n + 3`. -/
theorem cover8 (i : S8x1x512.Idx) :
    ∃ t : Fin cfg0.N, (cfg0.win 8).flush t = true ∧ i ∈ ((cfg0.win 8).blk t).view.set := by
  have h0 : (i 0).val < 8 := (i 0).isLt
  have h1 : (i 1).val < 1 := (i 1).isLt
  have h2 : (i 2).val < 512 := (i 2).isLt
  obtain ⟨t, ht⟩ : ∃ t : Fin cfg0.N, t.val = 4 * (i 0).val + 3 :=
    ⟨⟨4 * (i 0).val + 3, lt_of_lt_of_eq (by omega) (show (32 : Nat) = cfg0.N from N_0.symm)⟩, rfl⟩
  obtain ⟨-, -, -, -, -, -, p0, p1, p2, -⟩ := moving_idx t
  refine ⟨t, (flush0_8 t).mpr (by omega), ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 1 ≤ (i 1).val ∧ (i 1).val < win0_8.index t (1 : Fin 3) * 1 + 1; omega
  | ⟨2, _⟩ => show win0_8.index t (2 : Fin 3) * 512 ≤ (i 2).val ∧ (i 2).val < win0_8.index t (2 : Fin 3) * 512 + 512; omega

theorem cover9 (i : S8x1x512.Idx) :
    ∃ t : Fin cfg0.N, (cfg0.win 9).flush t = true ∧ i ∈ ((cfg0.win 9).blk t).view.set := by
  have h0 : (i 0).val < 8 := (i 0).isLt
  have h1 : (i 1).val < 1 := (i 1).isLt
  have h2 : (i 2).val < 512 := (i 2).isLt
  obtain ⟨t, ht⟩ : ∃ t : Fin cfg0.N, t.val = 4 * (i 0).val + 3 :=
    ⟨⟨4 * (i 0).val + 3, lt_of_lt_of_eq (by omega) (show (32 : Nat) = cfg0.N from N_0.symm)⟩, rfl⟩
  obtain ⟨-, -, -, -, -, -, -, -, -, q0, q1, q2⟩ := moving_idx t
  refine ⟨t, (flush0_9 t).mpr (by omega), ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 1 ≤ (i 1).val ∧ (i 1).val < win0_9.index t (1 : Fin 3) * 1 + 1; omega
  | ⟨2, _⟩ => show win0_9.index t (2 : Fin 3) * 512 ≤ (i 2).val ∧ (i 2).val < win0_9.index t (2 : Fin 3) * 512 + 512; omega

/-- THE TWO LAST-ROW ARRAYS after the run: the two activations at position 2047 of each sequence. -/
theorem final8 (c : Dev nD) : (dats m 0 c).arrAt 8 cfg0.N = lastAct0 (V m c main_arg0) (V m c main_arg1) (V m c main_arg2) :=
  (dats m 0 c).arrAt_eq_of_cover 8 (lastAct0 (V m c main_arg0) (V m c main_arg1) (V m c main_arg2)) (flushed8_eq m c) cover8

theorem final9 (c : Dev nD) : (dats m 0 c).arrAt 9 cfg0.N = lastAct1 (V m c main_arg0) (V m c main_arg1) (V m c main_arg2) (V m c main_arg3) (V m c main_arg4) :=
  (dats m 0 c).arrAt_eq_of_cover 9 (lastAct1 (V m c main_arg0) (V m c main_arg1) (V m c main_arg2) (V m c main_arg3) (V m c main_arg4)) (flushed9_eq m c) cover9

end Cert.KernelIdeal.Arrays

end
-- ==== Proof.KernelRun.lean ====
/-
  The kernel's run, with both results named.

  After the region the program squeezes each [8, 1, 512] last-row array to [8, 512], gives it a leading unit axis, and
  joins the two along that axis into the [2, 8, 512] second result; the first result is the region's [8, 2048, 512] array
  itself. With the three arrays the region leaves known as functions of the arguments, every weakly fair execution ends
  with the first result at the per-position outputs, the second at that stacking of the two activations at position
  2047, and the arguments unchanged.
-/
import proofs.«131985_j40776419508632_2_alg».proof.Proof.OutputArrays
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Results

open Cert.KernelIdeal Cert.KernelIdeal.Gen Cert.Layers Cert.KernelIdeal.Arrays

variable (m : (ℓ : Loc nD τ sig) → Buf (Elt Ideal) ℓ) (ρ : Dev nD → PrngReg)

/-- Two [8, 1, 512] arrays, each squeezed to [8, 512] and given a leading unit axis, joined along it. -/
def stacked (a b : S8x1x512.Idx → EReal) : S2x8x512.Idx → EReal :=
  concatenate S2x8x512 0
    [⟨S1x8x512, broadcastInDim S1x8x512 ![1, 2] bcast_S8x512_S1x8x512_1_2 (shapeCast S8x512 a shapeCasts_S8x1x512_S8x512)⟩,
      ⟨S1x8x512, broadcastInDim S1x8x512 ![1, 2] bcast_S8x512_S1x8x512_1_2 (shapeCast S8x512 b shapeCasts_S8x1x512_S8x512)⟩]
    concatenates_S1x8x512_S1x8x512_S2x8x512_d0

/-- The second result after the lines that follow the region: the stacking of the two last-row arrays as the region
    leaves them. -/
theorem tail_eq (c : Dev nD) :
    Pipeline.afterTail₀ cfgs (dats m) 0 (V0 m) [hostOps1] c main_v5
      = stacked ((dats m 0 c).arrAt 8 cfg0.N) ((dats m 0 c).arrAt 9 cfg0.N) := by
  unfold Pipeline.afterTail₀
  show StableHlo.after hostOps1 _ (Proc.devRef .tc main_v5) = _
  after_results
  rw [show Pipeline.withArrays (cfgs 0).spec c (V0 m c) (fun w => (dats m 0 c).arrAt w (cfgs 0).N) (Proc.tc.devRef main_v0_1)
        = (dats m 0 c).arrAt 8 cfg0.N from Pipeline.withArrays_arr spec0 launch0.win.arr_inj c _ _ 8,
    show Pipeline.withArrays (cfgs 0).spec c (V0 m c) (fun w => (dats m 0 c).arrAt w (cfgs 0).N) (Proc.tc.devRef main_v0_2)
        = (dats m 0 c).arrAt 9 cfg0.N from Pipeline.withArrays_arr spec0 launch0.win.arr_inj c _ _ 9]
  rfl

/-- The second result's buffer is no window's array. -/
theorem main_v5_rest : main_v5 ∈ Pipeline.restRefs sig (cfgs 0).spec :=
  Pipeline.mem_restRefs_of main_v5 rfl (fun w => by fin_cases w <;> decide)

/-- THE RUN: both results as functions of the argument arrays, the arguments unchanged. -/
theorem run : θ_run defs (onTc (τ := τ) (main (F := Ideal))) ⟨m, fun _ => 0, ρ⟩ fun r => ∀ c : Dev nD,
      r.2.mem ((c.tc : Thread nD τ).loc main_v0_0) = outputs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v5)
          = stacked (lastAct0 (m ((c.tc : Thread nD τ).loc main_arg0)) (m ((c.tc : Thread nD τ).loc main_arg1)) (m ((c.tc : Thread nD τ).loc main_arg2))) (lastAct1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1 7).trans (final7 m c),
      ((h c).2 main_v5 main_v5_rest).trans ((tail_eq m c).trans (by rw [final8 m c, final9 m c]; rfl)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.Results

end
-- ==== Proof.ReferenceLayers.lean ====
/-
  The reference's stages, read entry by entry.

  The reference applies each layer to the whole [8, 2048, 512] array at once: a `dot_general` contracting the last axis of
  the activations with the last axis of the weights, the bias broadcast along the first two axes, `tanh`. At the entry
  `(n, s, h)` the `dot_general` is `∑ k, a (n, s, k) · W (h, k)` and the broadcast bias is `b h`, so each stage there is
  that stage of `Cert.Layers` on row `(n, s)`. The slice `[0:8, 2047:2048, 0:512]` of an activation reads position 2047.
-/
import proofs.«131985_j40776419508632_2_alg».proof.Proof.Gen.ReferenceIdeal.Read
import proofs.«131985_j40776419508632_2_alg».proof.Proof.DenseLayers

noncomputable section

namespace Cert.ReferenceIdeal.Stages

open Cert.ReferenceIdeal Cert.ReferenceIdeal.Read Idealize.ShloMosaic Idealize.ShloMosaic.ValueIdx Cert.Layers

/-- A sum over `k` of activations at `(n, s, k)` times weights at `(h, k)`, plus the bias at `h`, is the dense layer on row
    `(n, s)` at `h`, however the three indices are spelt. -/
theorem dense_of (A : S8x2048x512.Idx → EReal) (W : S512x512.Idx → EReal) (B : S512.Idx → EReal) (i : S8x2048x512.Idx)
    (l : Fin 512 → S8x2048x512.Idx) (r : Fin 512 → S512x512.Idx) (bi : S512.Idx)
    (hl : ∀ k, l k = ix3 (i 0) (i 1) k) (hr : ∀ k, r k = ix2 (i 2) k) (hb : bi = ix1 (i 2)) :
    (∑ k : Fin 512, A (l k) * W (r k)) + B bi = dense (seqRow A (i 0) (i 1)) (mat W) (vec B) (i 2) := by
  unfold dense
  rw [hb]
  exact congrArg (· + B (ix1 (i 2))) (Finset.sum_congr rfl fun k _ => by rw [hl k, hr k]; rfl)

/-- The generated index maps of the three `dot_general`s and of the bias broadcasts, by coordinates. -/
theorem lrow (i : S8x2048x512.Idx) (k : Fin 512) : lidx_main_v0 i k = ix3 (i 0) (i 1) k :=
  funext fun a => Fin.ext (by match a with | ⟨0, _⟩ => rfl | ⟨1, _⟩ => rfl | ⟨2, _⟩ => rfl)
theorem rrow (i : S8x2048x512.Idx) (k : Fin 512) : ridx_main_v0 i k = ix2 (i 2) k :=
  funext fun a => Fin.ext (by match a with | ⟨0, _⟩ => rfl | ⟨1, _⟩ => rfl)
theorem bcol (i : S8x2048x512.Idx) : idx_main_v1 (idx_main_v2 i) = ix1 (i 2) :=
  funext fun a => Fin.ext (by match a with | ⟨0, _⟩ => rfl)

/-- The first layer before its `tanh`, -/
theorem lin0_apply (X0 : (⟨S8x2048x512, .f32⟩ : BufTy).Contents (Elt Ideal)) (X1 : (⟨S512x512, .f32⟩ : BufTy).Contents (Elt Ideal)) (X2 : (⟨S512, .f32⟩ : BufTy).Contents (Elt Ideal)) (i : S8x2048x512.Idx) :
    val_main_v3 (F := Ideal) X0 X1 X2 i = dense (seqRow X0 (i 0) (i 1)) (mat X1) (vec X2) (i 2) := by
  rw [val_main_v3_apply, val_main_v0_apply, val_main_v2_apply, val_main_v1_apply]
  exact dense_of X0 X1 X2 i _ _ _ (lrow i) (rrow i) (bcol i)

/-- and after it: the first activation. -/
theorem act0_apply (X0 : (⟨S8x2048x512, .f32⟩ : BufTy).Contents (Elt Ideal)) (X1 : (⟨S512x512, .f32⟩ : BufTy).Contents (Elt Ideal)) (X2 : (⟨S512, .f32⟩ : BufTy).Contents (Elt Ideal)) (i : S8x2048x512.Idx) :
    val_main_v4 (F := Ideal) X0 X1 X2 i = act0 (seqRow X0 (i 0) (i 1)) (mat X1) (vec X2) (i 2) := by
  rw [val_main_v4_apply]
  exact congrArg Ideal.tanh (lin0_apply X0 X1 X2 i)

/-- The second layer before its `tanh`, -/
theorem lin1_apply (X0 : (⟨S8x2048x512, .f32⟩ : BufTy).Contents (Elt Ideal)) (X1 : (⟨S512x512, .f32⟩ : BufTy).Contents (Elt Ideal)) (X2 : (⟨S512, .f32⟩ : BufTy).Contents (Elt Ideal)) (X3 : (⟨S512x512, .f32⟩ : BufTy).Contents (Elt Ideal)) (X4 : (⟨S512, .f32⟩ : BufTy).Contents (Elt Ideal)) (i : S8x2048x512.Idx) :
    val_main_v8 (F := Ideal) X0 X1 X2 X3 X4 i
      = dense (act0 (seqRow X0 (i 0) (i 1)) (mat X1) (vec X2)) (mat X3) (vec X4) (i 2) := by
  rw [val_main_v8_apply, val_main_v5_apply, val_main_v7_apply, val_main_v6_apply]
  refine (dense_of (val_main_v4 (F := Ideal) X0 X1 X2) X3 X4 i _ _ _ (lrow i) (rrow i) (bcol i)).trans ?_
  exact congrArg (fun v => dense v (mat X3) (vec X4) (i 2)) (funext fun k => act0_apply X0 X1 X2 (ix3 (i 0) (i 1) k))

/-- and after it: the second activation. -/
theorem act1_apply (X0 : (⟨S8x2048x512, .f32⟩ : BufTy).Contents (Elt Ideal)) (X1 : (⟨S512x512, .f32⟩ : BufTy).Contents (Elt Ideal)) (X2 : (⟨S512, .f32⟩ : BufTy).Contents (Elt Ideal)) (X3 : (⟨S512x512, .f32⟩ : BufTy).Contents (Elt Ideal)) (X4 : (⟨S512, .f32⟩ : BufTy).Contents (Elt Ideal)) (i : S8x2048x512.Idx) :
    val_main_v9 (F := Ideal) X0 X1 X2 X3 X4 i
      = act1 (seqRow X0 (i 0) (i 1)) (mat X1) (vec X2) (mat X3) (vec X4) (i 2) := by
  rw [val_main_v9_apply]
  exact congrArg Ideal.tanh (lin1_apply X0 X1 X2 X3 X4 i)

/-- The first result is the per-position outputs. -/
theorem outputs_eq (X0 : (⟨S8x2048x512, .f32⟩ : BufTy).Contents (Elt Ideal)) (X1 : (⟨S512x512, .f32⟩ : BufTy).Contents (Elt Ideal)) (X2 : (⟨S512, .f32⟩ : BufTy).Contents (Elt Ideal)) (X3 : (⟨S512x512, .f32⟩ : BufTy).Contents (Elt Ideal)) (X4 : (⟨S512, .f32⟩ : BufTy).Contents (Elt Ideal)) (X5 : (⟨S512x512, .f32⟩ : BufTy).Contents (Elt Ideal)) (X6 : (⟨S512, .f32⟩ : BufTy).Contents (Elt Ideal)) :
    val_main_v13 (F := Ideal) X0 X1 X2 X3 X4 X5 X6 = outputs X0 X1 X2 X3 X4 X5 X6 := by
  funext i
  rw [val_main_v13_apply, val_main_v10_apply, val_main_v12_apply, val_main_v11_apply]
  refine (dense_of (val_main_v9 (F := Ideal) X0 X1 X2 X3 X4) X5 X6 i _ _ _ (lrow i) (rrow i) (bcol i)).trans ?_
  exact congrArg (fun v => dense v (mat X5) (vec X6) (i 2))
    (funext fun k => act1_apply X0 X1 X2 X3 X4 (ix3 (i 0) (i 1) k))

/-- The slice of position 2047, by coordinates. -/
theorem lastIdx (j : S8x1x512.Idx) : idx_main_v14 j = ix3 (j 0) lastPos (j 2) :=
  funext fun a => Fin.ext (by
    match a with
    | ⟨0, _⟩ => rfl
    | ⟨1, _⟩ => have h1 : (j 1).val < 1 := (j 1).isLt; show 2047 + (j 1).val = 2047; omega
    | ⟨2, _⟩ => rfl)

/-- The first activation's slice at position 2047. -/
theorem lastAct0_eq (X0 : (⟨S8x2048x512, .f32⟩ : BufTy).Contents (Elt Ideal)) (X1 : (⟨S512x512, .f32⟩ : BufTy).Contents (Elt Ideal)) (X2 : (⟨S512, .f32⟩ : BufTy).Contents (Elt Ideal)) : val_main_v14 (F := Ideal) X0 X1 X2 = lastAct0 X0 X1 X2 := by
  funext j
  rw [val_main_v14_apply, lastIdx j]
  exact act0_apply X0 X1 X2 (ix3 (j 0) lastPos (j 2))

/-- The second activation's slice at position 2047. -/
theorem lastAct1_eq (X0 : (⟨S8x2048x512, .f32⟩ : BufTy).Contents (Elt Ideal)) (X1 : (⟨S512x512, .f32⟩ : BufTy).Contents (Elt Ideal)) (X2 : (⟨S512, .f32⟩ : BufTy).Contents (Elt Ideal)) (X3 : (⟨S512x512, .f32⟩ : BufTy).Contents (Elt Ideal)) (X4 : (⟨S512, .f32⟩ : BufTy).Contents (Elt Ideal)) : val_main_v16 (F := Ideal) X0 X1 X2 X3 X4 = lastAct1 X0 X1 X2 X3 X4 := by
  funext j
  rw [val_main_v16_apply, show idx_main_v16 j = idx_main_v14 j from rfl, lastIdx j]
  exact act1_apply X0 X1 X2 X3 X4 (ix3 (j 0) lastPos (j 2))

end Cert.ReferenceIdeal.Stages

end
-- ==== Proof.lean ====
/-
  A three-layer network applied position by position: the tiled kernel against the whole-array reference.

  Both programs take an [8, 2048, 512] input and three [512, 512] weight matrices with their biases, and compute for each
  row `v` of the input  a₀ = tanh (W₀ v + b₀),  a₁ = tanh (W₁ a₀ + b₁),  y = W_t a₁ + b_t  (a matrix acting by its rows);
  they return `y` for every row and, stacked, `a₀` and `a₁` at the last position of each of the 8 sequences. The kernel
  walks a grid of 8 × 4 points, one tile of 512 rows at a time, with the weights resident, and stores the two last rows
  only at a sequence's last tile; the reference applies each layer to the whole array and slices position 2047.

  Over the extended reals the two are the same function, entry by entry, with no law beyond the definitions: a change of
  float format is the identity, the kernel's product of rows with rows into a zero accumulator and the reference's
  contraction of the last axes are the same finite sum over the same index, and `tanh` is one total function on both
  sides. So nothing is asked of the inputs, and the precondition is never opened.

    Proof/DenseLayers      the function on one row, and the three result arrays it names
    Proof/LibMatmulRows    a product of rows with rows into zero, read at an entry
    Proof/BodyRows         the kernel body's stored values, entry by entry
    Proof/TileValues       what one run of the body leaves in its output buffers
    Proof/PointBlocks      which blocks a grid point sees, and what it leaves
    Proof/OutputArrays     the three arrays the region leaves, as functions of the arguments
    Proof/KernelRun        the lines after the region, and the kernel's run with both results named
    Proof/ReferenceLayers  the reference's stages, entry by entry
  The three frames are the generated ones (the reference's is its generated run with the results dropped); the kernel's
  idealization rewrote nothing.
-/
import proofs.«131985_j40776419508632_2_alg».proof.Defs
import proofs.«131985_j40776419508632_2_alg».proof.Proof.Gen.Kernel
import proofs.«131985_j40776419508632_2_alg».proof.Proof.Gen.Kernel.Skeleton
import proofs.«131985_j40776419508632_2_alg».proof.Proof.Gen.Kernel.Launch
import proofs.«131985_j40776419508632_2_alg».proof.Proof.Gen.Kernel.Points
import proofs.«131985_j40776419508632_2_alg».proof.Proof.Gen.Kernel.Frame
import proofs.«131985_j40776419508632_2_alg».proof.Proof.Gen.KernelIdeal
import proofs.«131985_j40776419508632_2_alg».proof.Proof.Gen.KernelIdeal.Skeleton
import proofs.«131985_j40776419508632_2_alg».proof.Proof.Gen.KernelIdeal.Launch
import proofs.«131985_j40776419508632_2_alg».proof.Proof.Gen.KernelIdeal.Points
import proofs.«131985_j40776419508632_2_alg».proof.Proof.Gen.KernelIdeal.Frame
import proofs.«131985_j40776419508632_2_alg».proof.Proof.Gen.ReferenceIdeal
import proofs.«131985_j40776419508632_2_alg».proof.Proof.Gen.ReferenceIdeal.Run
import proofs.«131985_j40776419508632_2_alg».proof.Proof.Gen.ReferenceIdeal.Read
import proofs.«131985_j40776419508632_2_alg».proof.Proof.Gen.Pre_finite_inputs
import proofs.«131985_j40776419508632_2_alg».proof.Proof.KernelRun
import proofs.«131985_j40776419508632_2_alg».proof.Proof.ReferenceLayers
import Idealize.ShloMosaic.Adequacy
import Idealize.ShloMosaic.Init

noncomputable section

namespace Cert.Proof

open Idealize.ShloMosaic Idealize.ShloMosaic.TcCoe Idealize.SL.Sem Cert.Layers

/-- The reference's second result is the kernel's stacking of the two activations at position 2047: both programs end
    with the same squeeze, leading unit axis and join, applied to the same two arrays. -/
theorem second_eq (X0 : Cert.ReferenceIdeal.S8x2048x512.Idx → EReal) (X1 : Cert.ReferenceIdeal.S512x512.Idx → EReal)
    (X2 : Cert.ReferenceIdeal.S512.Idx → EReal) (X3 : Cert.ReferenceIdeal.S512x512.Idx → EReal)
    (X4 : Cert.ReferenceIdeal.S512.Idx → EReal) :
    Cert.ReferenceIdeal.Read.val_main_v20 (F := Ideal) X0 X1 X2 X3 X4
      = Cert.KernelIdeal.Results.stacked (lastAct0 X0 X1 X2) (lastAct1 X0 X1 X2 X3 X4) := by
  rw [← Cert.ReferenceIdeal.Stages.lastAct0_eq, ← Cert.ReferenceIdeal.Stages.lastAct1_eq]
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- At the ideal values both programs end with the per-position outputs and the stacked last-position activations of
    arguments that agree. -/
theorem algebraic : Cert.algebraic_KernelIdeal_ReferenceIdeal := by
  intro m ρ m' ρ' _ hagree
  refine ⟨_, _, Cert.KernelIdeal.Results.run m ρ, ?_⟩
  refine (θ_run Cert.ReferenceIdeal.defs _ _).mono (fun _ h c => ⟨?_, ?_, (h c).2.2⟩)
    (Cert.ReferenceIdeal.Value.run (F := Ideal) m' ρ')
  · refine (h c).1.trans ((Cert.ReferenceIdeal.Read.val_main_v13_eq _ _ _ _ _ _ _).trans ?_)
    rw [Cert.ReferenceIdeal.Stages.outputs_eq, (hagree c).1, (hagree c).2.1, (hagree c).2.2.1, (hagree c).2.2.2.1,
      (hagree c).2.2.2.2.1, (hagree c).2.2.2.2.2.1, (hagree c).2.2.2.2.2.2]
  · refine (h c).2.1.trans ((Cert.ReferenceIdeal.Read.val_main_v20_eq _ _ _ _ _).trans ?_)
    rw [second_eq, (hagree c).1, (hagree c).2.1, (hagree c).2.2.1, (hagree c).2.2.2.1, (hagree c).2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
